-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S16 .f32) (main_arg14 : FVec F S16x1 .f32) (main_arg15 : FVec F S1 .f32) (main_v48 : IVec S_ 1) (main_v49 : FVec F S32x16 .f32) (main_v50 : FVec F S32x16 .f32) : IVec S_ 1 :=
  let main_v51 : IVec S32x16 1 := cmpf .olt main_v49 main_v50
  let main_c_19 : IVec S_ 1 := constantI S_ 1 1#1
  let main_v52 : IVec S_ 1 := (fun x v => Host.reduce IntOp.andi x v reducesTo_S32x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x1 .f32 := Host.absf main_arg14
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S32x32 .f32) (main_arg10 : FVec F S32x32 .f32) (main_arg11 : FVec F S32 .f32) (main_arg12 : FVec F S32x16 .f32) (main_arg13 : FVec F S16 .f32) (main_arg14 : FVec F S16x1 .f32) (main_arg15 : FVec F S1 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x16 .f32 := Host.absf main_arg12
  let main_cst_18 : FVec F S_ .f32 := constant S_ .f32 0x7F800000#32
  let main_v50 : FVec F S32x16 .f32 := broadcastInDim S32x16 ![] bcast_S_S32x16 main_cst_18
  fn_part3 (F := F) main_arg13 main_arg14 main_arg15 main_v48 main_v49 main_v50

def fn_part1 {F : FTy → Type} [FloatOps F] (main_arg6 : FVec F S64x32 .f32) (main_arg7 : FVec F S32x32 .f32) (main_arg8 : FVec F S32 .f32) (main_arg9 : FVec F S32x32 .f32) (main_arg10 : FVec F S32x32 .f32) (main_arg11 : FVec F S32 .f32) (main_arg12 : FVec F S32x16 .f32) (main_arg13 : FVec F S16 .f32) (main_arg14 : FVec F S16x1 .f32) (main_arg15 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1600000 32) (main_arg2 : FVec F S1600000 .f32) (main_arg3 : IVec S100000 32) (main_arg4 : FVec F S64x32 .f32) (main_arg5 : FVec F S32 .f32) (main_arg6 : FVec F S64x32 .f32) (main_arg7 : FVec F S32x32 .f32) (main_arg8 : FVec F S32 .f32) (main_arg9 : FVec F S32x32 .f32) (main_arg10 : FVec F S32x32 .f32) (main_arg11 : FVec F S32 .f32) (main_arg12 : FVec F S32x16 .f32) (main_arg13 : FVec F S16 .f32) (main_arg14 : FVec F S16x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S10000x64 : Shape := ⟨2, ![10000, 64]⟩
abbrev S10000x32 : Shape := ⟨2, ![10000, 32]⟩
abbrev S1x32 : Shape := ⟨2, ![1, 32]⟩
abbrev S1600000x32 : Shape := ⟨2, ![1600000, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S1x1 : Shape := ⟨2, ![1, 1]⟩

abbrev nBuf : Space → Nat
  | .hbm => 71
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x1, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x32, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x32, .f32⟩
  | .hbm, ⟨46, _⟩ => ⟨S1600000x1, .f32⟩
  | .hbm, ⟨47, _⟩ => ⟨S1600000x32, .f32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S100000x32, .f32⟩
  | .hbm, ⟨54, _⟩ => ⟨S_, .f32⟩
  | .hbm, ⟨55, _⟩ => ⟨S256x32, .f32⟩
  | .hbm, ⟨56, _⟩ => ⟨S100000x1, .i32⟩
  | .hbm, ⟨57, _⟩ => ⟨S256x32, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S256, .f32⟩
  | .hbm, ⟨62, _⟩ => ⟨S100000x1, .i32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256x1, .f32⟩
  | .hbm, ⟨68, _⟩ => ⟨S256x32, .f32⟩
  | .hbm, ⟨69, _⟩ => ⟨S256x32, .f32⟩
  | .hbm, ⟨70, _⟩ => ⟨S256x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x32, .f32⟩
  | .local _ .vmem, ⟨5, _⟩ => ⟨S32, .f32⟩
  | .local _ .vmem, ⟨6, _⟩ => ⟨S64x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x32, .f32⟩
  | .local _ .vmem, ⟨14, _⟩ => ⟨S32, .f32⟩
  | .local _ .vmem, ⟨15, _⟩ => ⟨S32x32, .f32⟩
  | .local _ .vmem, ⟨16, _⟩ => ⟨S10000x32, .f32⟩
  | .local _ .vmem, ⟨17, _⟩ => ⟨S10000x32, .f32⟩
  | .local _ .vmem, ⟨18, _⟩ => ⟨S256x32, .f32⟩
  | .local _ .vmem, ⟨19, _⟩ => ⟨S32x32, .f32⟩
  | .local _ .vmem, ⟨20, _⟩ => ⟨S32, .f32⟩
  | .local _ .vmem, ⟨21, _⟩ => ⟨S32x16, .f32⟩
  | .local _ .vmem, ⟨22, _⟩ => ⟨S16, .f32⟩
  | .local _ .vmem, ⟨23, _⟩ => ⟨S16x1, .f32⟩
  | .local _ .vmem, ⟨24, _⟩ => ⟨S1, .f32⟩
  | .local _ .vmem, ⟨25, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S_S256x32 : S_.BroadcastsInDim S256x32 (![] : Fin 0 → Fin S256x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  shapeCasts_S1x16_S1x16 : S1x16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x32_S32x32_S256x32_1_0_0_1_n_n_wf : DotDims.WF S256x32 S32x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x32.size a ≤ S256x32.size a
  hwx2_0 : ∀ i : grid2.Coords, EltTy.bits .f32 = 32 ∨ (Rect.block (s := S256x32) S256x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x16.size a ≤ S32x16.size a
  hwx2_3 : ∀ i : grid2.Coords, EltTy.bits .f32 = 32 ∨ (Rect.block (s := S32x16) S32x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16.size a ≤ S16.size a
  hwx2_4 : ∀ i : grid2.Coords, EltTy.bits .f32 = 32 ∨ (Rect.block (s := S16) S16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x1.size a ≤ S16x1.size a
  hwx2_5 : ∀ i : grid2.Coords, EltTy.bits .f32 = 32 ∨ (Rect.block (s := S16x1) S16x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v16) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S256x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S16x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S256x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S1600000x32 : Shape := ⟨2, ![1600000, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S16x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x1, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x32, .f32⟩
  | .hbm, ⟨37, _⟩ => ⟨S1x32, .f32⟩
  | .hbm, ⟨38, _⟩ => ⟨S100000x32, .f32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S_, .f32⟩
  | .hbm, ⟨43, _⟩ => ⟨S100000x32, .f32⟩
  | .hbm, ⟨44, _⟩ => ⟨S100000x32, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x32, .f32⟩
  | .hbm, ⟨54, _⟩ => ⟨S1600000x1, .f32⟩
  | .hbm, ⟨55, _⟩ => ⟨S1600000x32, .f32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S256x32, .f32⟩
  | .hbm, ⟨72, _⟩ => ⟨S100000x1, .i32⟩
  | .hbm, ⟨73, _⟩ => ⟨S256x32, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S256, .f32⟩
  | .hbm, ⟨78, _⟩ => ⟨S100000x1, .i32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256x1, .f32⟩
  | .hbm, ⟨84, _⟩ => ⟨S256x32, .f32⟩
  | .hbm, ⟨85, _⟩ => ⟨S256x32, .f32⟩
  | .hbm, ⟨86, _⟩ => ⟨S256x32, .f32⟩
  | .hbm, ⟨87, _⟩ => ⟨S1x32, .f32⟩
  | .hbm, ⟨88, _⟩ => ⟨S256x32, .f32⟩
  | .hbm, ⟨89, _⟩ => ⟨S256x32, .f32⟩
  | .hbm, ⟨90, _⟩ => ⟨S_, .f32⟩
  | .hbm, ⟨91, _⟩ => ⟨S256x32, .f32⟩
  | .hbm, ⟨92, _⟩ => ⟨S256x32, .f32⟩
  | .hbm, ⟨93, _⟩ => ⟨S256x16, .f32⟩
  | .hbm, ⟨94, _⟩ => ⟨S1x16, .f32⟩
  | .hbm, ⟨95, _⟩ => ⟨S256x16, .f32⟩
  | .hbm, ⟨96, _⟩ => ⟨S256x16, .f32⟩
  | .hbm, ⟨97, _⟩ => ⟨S_, .f32⟩
  | .hbm, ⟨98, _⟩ => ⟨S256x16, .f32⟩
  | .hbm, ⟨99, _⟩ => ⟨S256x16, .f32⟩
  | .hbm, ⟨100, _⟩ => ⟨S256x1, .f32⟩
  | .hbm, ⟨101, _⟩ => ⟨S1x1, .f32⟩
  | .hbm, ⟨102, _⟩ => ⟨S256x1, .f32⟩
  | .hbm, ⟨103, _⟩ => ⟨S256x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call2_cst : Ref sig .tc := ⟨.hbm, 90, rfl⟩
abbrev main_call2_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  bcast_S_S256x32 : S_.BroadcastsInDim S256x32 (![] : Fin 0 → Fin S256x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x32_S32x32_S256x32_1_0_0_1_n_n_wf : DotDims.WF S256x32 S32x32 S256x32 [1] [0] [0] [1] [] []
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.RunAll.lean ====
/-
  The idealized kernel's whole run, with every buffer read at the end.

  @main is three stretches of host operations, each followed by a kernel launch. The buffer contents at the end of
  the run are a fold through those six segments from the launch memory: a host stretch applies its operations in
  order; a kernel launch leaves each of its arrays at what the grid's write-backs put there and every other buffer
  alone. Every weakly fair execution terminates, and every buffer that outlives the launches — the result and the
  arguments among them — ends holding the last stage of that fold. In particular the result buffer ends at the fold's
  value there, and each argument ends as launched.
-/
import proofs.«151422_j9577777070402_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives the launches
    ends at the last stage of the fold through @main's six segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result read: the result buffer ends at the fold's last stage, the arguments as launched. -/
theorem run_result : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v44 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c)⟩)
    (run_all m ρ)

end Cert.KernelIdeal.RunAll

end
-- ==== Proof.LibRows.lean ====
/-
  Rows of a matrix reduced along their length, and the matrix product, read one entry at a time on the extended
  reals.

  * Summing, or taking the maximum, along the rows of an `a × s` matrix leaves a length-`a` vector whose entry `r`
    is the sum (the maximum, folded from the starting value) of row `r`.
  * The product of an `m × k` matrix with a `k × n` matrix, accumulated into zero, has at `(p, q)` the sum over
    `c` of `l (p, c) · r (c, q)`: a contraction of the left operand's second axis with the right operand's first.
-/
import Idealize.ShloMosaic.Lib.ValueIdx
import Idealize.ShloMosaic.Lib.Pipeline.Value
import Idealize.ShloMosaic.PureOps.Ideal.Laws

namespace Cert.LibRows

open Idealize.ShloMosaic Idealize.ShloMosaic.ValueIdx

/-- The index a row reduction reads: the kept row coordinate, then the position along the row. -/
theorem lift_last2 {A S : ℕ} (h : (⟨2, ![A, S]⟩ : Shape).Reduces [1] ⟨1, ![A]⟩) (r : Fin A) (k : Fin S) :
    h.lift (ix1 r) k = ix2 r k :=
  funext fun a => Fin.ext (by
    match a with
    | ⟨0, _⟩ => rfl
    | ⟨1, _⟩ => rfl)

/-- The sum along the rows, at `r`: the sum of row `r`. -/
theorem sum_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.add.neutral φ hφ)
    (r : Fin A) :
    multiReduction .add [1] ⟨1, ![A]⟩ x acc h hφ hacc (ix1 r) = ∑ k : Fin S, x (ix2 r k) :=
  (Ideal.multiReduction_add_single x acc h hφ hacc (ix1 r)).trans
    (Finset.sum_congr rfl fun k _ => congrArg x (lift_last2 h r k))

/-- The maximum along the rows, at `r`: the maximum of row `r`, folded from the starting value. -/
theorem max_last2_apply {A S : ℕ} {φ : FTy} (x : FVec Ideal ⟨2, ![A, S]⟩ φ) (acc : BitVec φ.bits)
    (h : (⟨2, ![A, S]⟩ : Shape).Reduces [1] ⟨1, ![A]⟩) (hφ : FKind.Formats φ) (hacc : acc = FKind.maximumf.neutral φ hφ)
    (r : Fin A) :
    multiReduction .maximumf [1] ⟨1, ![A]⟩ x acc h hφ hacc (ix1 r)
      = (Finset.univ : Finset (Fin S)).fold max (Ideal.ofBits φ acc) (fun k => x (ix2 r k)) :=
  (Ideal.multiReduction_maximumf_single x acc h hφ hacc (ix1 r)).trans
    (congrArg ((Finset.univ : Finset (Fin S)).fold max (Ideal.ofBits φ acc)) (funext fun k => congrArg x (lift_last2 h r k)))

/-- The matrix product into a zero accumulator, at `(p, q)`: the sum over `c` of `l (p, c) · r (c, q)`. The four
    hypotheses say which coordinate of the output index or of the contraction index each operand coordinate is. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) := by
  refine (Ideal.matmul_constant_zero_apply D none l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibRows
-- ==== Proof.LibDotHost.lean ====
/-
  The host's matrix product read one entry at a time on the extended reals.

  The product of an `m × k` matrix with a `k × n` matrix — a contraction of the left operand's second axis with
  the right operand's first — has at `(p, q)` the sum over `c` of `l (p, c) · r (c, q)`, whatever order the sum is
  scheduled in.
-/
import Idealize.ShloMosaic.Lib.ValueIdx
import Idealize.ShloMosaic.Lib.Pipeline.Value
import Idealize.ShloMosaic.PureOps.Ideal.Laws

namespace Cert.LibDotHost

open Idealize.ShloMosaic Idealize.ShloMosaic.ValueIdx

/-- The host product at `(p, q)`: the sum over `c` of `l (p, c) · r (c, q)`. The four hypotheses say which
    coordinate of the output index or of the contraction index each operand coordinate is. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) := by
  refine (Ideal.dotGeneral_apply D none .single l r (ix2 p q)).trans ?_
  rw [← Equiv.sum_comp (contrEquiv1 D K hr hs).symm]
  refine Finset.sum_congr rfl fun c _ => ?_
  have hc := contrEquiv1_symm_val D K hr hs c
  have el : D.lhsIdx (ix2 p q) ((contrEquiv1 D K hr hs).symm c) = ix2 p c := funext fun a => Fin.ext (by
    match a with
    | ⟨0, _⟩ => exact hl0 _ _
    | ⟨1, _⟩ => exact (hl1 _ _).trans hc)
  have er : D.rhsIdx (ix2 p q) ((contrEquiv1 D K hr hs).symm c) = ix2 c q := funext fun a => Fin.ext (by
    match a with
    | ⟨0, _⟩ => exact (hr0 _ _).trans hc
    | ⟨1, _⟩ => exact hr1 _ _)
  rw [el, er]

end Cert.LibDotHost
-- ==== Proof.LibPlainDot.lean ====
/-
  The plain matrix product `(m × k) · (k × n)`, read one entry at a time on the extended reals, from the dimension
  numbers alone.

  A product whose dimension numbers say "no batch axes; the left operand keeps axis 0 and contracts axis 1; the right
  operand contracts axis 0 and keeps axis 1" has at `(p, q)` the sum over `c` of `l (p, c) · r (c, q)`, whether it is
  the host's `dot_general` or the matrix unit's product into a zero accumulator. The six lists are taken as equations,
  so a printed record discharges each by `rfl`.
-/
import proofs.«151422_j9577777070402_1_alg».proof.Proof.LibRows
import proofs.«151422_j9577777070402_1_alg».proof.Proof.LibDotHost

namespace Cert.LibPlainDot

open Idealize.ShloMosaic Idealize.ShloMosaic.ValueIdx

variable {M K N : ℕ} (D : DotDims ⟨2, ![M, K]⟩ ⟨2, ![K, N]⟩ ⟨2, ![M, N]⟩)
  (hlb : D.lhsBatch = []) (hrb : D.rhsBatch = []) (hln : D.lhsNonContracting = [0]) (hrn : D.rhsNonContracting = [1])
  (hlc : D.lhsContracting = [1]) (hrc : D.rhsContracting = [0])

include hlc in
/-- One contracted axis. -/
theorem contr_rank : D.contr.rank = 1 := D.rank_contr.trans (by rw [hlc]; rfl)

include hlc in
/-- Its extent is `K`. -/
theorem contr_size : D.contr.size ⟨0, by rw [contr_rank D hlc]; exact Nat.one_pos⟩ = K := by
  have hp : 0 < D.lhsContracting.length := by rw [hlc]; exact Nat.one_pos
  refine (D.size_contr 0 hp).trans ?_
  rw [List.getElem_of_eq hlc hp]
  rfl

include hlb hln in
/-- The left operand's row is the result's row. -/
theorem lhs_row (i : (⟨2, ![M, N]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln])

include hrb hrn hlb hln in
/-- The right operand's column is the result's column. -/
theorem rhs_col (i : (⟨2, ![M, N]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (i ⟨a, ha⟩).val = (i ⟨b, hb⟩).val := fun a b ha hb h => by subst h; rfl
  exact key _ _ _ _ (by simp [hlb, hln, hrn])

include hlb hrb hln hrn hlc hrc in
/-- The matrix unit's product into a zero accumulator, at `(p, q)`. -/
theorem matmul_apply {φ₁ φ₂ : FTy} (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ c : Fin K, l (ix2 p c) * r (ix2 c q) :=
  Cert.LibRows.matmul_zero_apply D (contr_rank D hlc) (contr_size D hlc) (lhs_row D hlb hln)
    (fun i k => D.lhsIdx_val_of_single hlc i k) (fun i k => D.rhsIdx_val_of_single hrc i k) (rhs_col D hlb hrb hln hrn) l r p q

include hlb hrb hln hrn hlc hrc in
/-- The host's product, at `(p, q)`. -/
theorem dotGeneral_apply {φ₁ φ₂ : FTy} (l : FVec Ideal ⟨2, ![M, K]⟩ φ₁) (r : FVec Ideal ⟨2, ![K, N]⟩ φ₂) (p : Fin M) (q : Fin N) :
    Host.dotGeneral D none l r (ix2 p q) = ∑ c : Fin K, l (ix2 p c) * r (ix2 c q) :=
  Cert.LibDotHost.dotGeneral_apply D (contr_rank D hlc) (contr_size D hlc) (lhs_row D hlb hln)
    (fun i k => D.lhsIdx_val_of_single hlc i k) (fun i k => D.rhsIdx_val_of_single hrc i k) (rhs_col D hlb hrb hln hrn) l r p q

end Cert.LibPlainDot
-- ==== Proof.LibLayer.lean ====
/-
  Dense layers read one entry at a time on the extended reals.

  A dense layer sends a matrix `a` (one row per item) to `a · w + b`: entry `(p, q)` is the sum over `c` of
  `a (p, c) · w (c, q)`, plus the bias of column `q`. A graph-convolution layer adds two such products — the
  aggregated neighbours through one weight matrix and the item's own features through another — and one bias. A
  rectifier takes the larger of an entry and a threshold.

  Each is computed two ways below, and both are shown to be the same whole-array function:
  * on the matrix unit: the product accumulated into zeros, the bias vector re-laid as one row and spread down the rows;
  * by the host: the general product contracting the left operand's second axis with the right operand's first, the
    bias vector placed along a new leading unit axis and spread down the rows.
  For the graph-convolution layer the two computations add their three terms in different orders — products first,
  or the bias in the middle — which agree because addition of extended reals is commutative and associative.
-/
import Idealize.ShloMosaic.Lib.ValueIdx
import Idealize.ShloMosaic.Lib.ValueLayout
import Idealize.ShloMosaic.Lib.Pipeline.Value
import Idealize.ShloMosaic.PureOps.Ideal.Laws
import proofs.«151422_j9577777070402_1_alg».proof.Proof.LibPlainDot

noncomputable section

namespace Cert.LibLayer

open Idealize.ShloMosaic Idealize.ShloMosaic.ValueIdx

/-- An `M × N` matrix of extended reals. -/
abbrev Mat (M N : ℕ) : Type := (⟨2, ![M, N]⟩ : Shape).Idx → EReal
/-- A length-`N` vector of extended reals. -/
abbrev Row (N : ℕ) : Type := (⟨1, ![N]⟩ : Shape).Idx → EReal

/-- Entry `(p, q)` of the product `a · w`. -/
def prodAt {M K N : ℕ} (a : Mat M K) (w : Mat K N) (p : Fin M) (q : Fin N) : EReal :=
  ∑ c : Fin K, a (ix2 p c) * w (ix2 c q)

/-- The dense layer `a · w + b`. -/
def dense {M K N : ℕ} (a : Mat M K) (w : Mat K N) (b : Row N) : Mat M N :=
  fun i => prodAt a w (i 0) (i 1) + b (ix1 (i 1))

/-- The graph-convolution layer `(a · w + x · w') + b`. -/
def combine {M K N : ℕ} (a x : Mat M K) (w w' : Mat K N) (b : Row N) : Mat M N :=
  fun i => (prodAt a w (i 0) (i 1) + prodAt x w' (i 0) (i 1)) + b (ix1 (i 1))

/-- The rectifier at threshold `z`. -/
def relu {s : Shape} (z : EReal) (y : s.Idx → EReal) : s.Idx → EReal := fun i => max (y i) z

theorem dense_apply {M K N : ℕ} (a : Mat M K) (w : Mat K N) (b : Row N) (p : Fin M) (q : Fin N) :
    dense a w b (ix2 p q) = prodAt a w p q + b (ix1 q) := rfl

theorem combine_apply {M K N : ℕ} (a x : Mat M K) (w w' : Mat K N) (b : Row N) (p : Fin M) (q : Fin N) :
    combine a x w w' b (ix2 p q) = (prodAt a w p q + prodAt x w' p q) + b (ix1 q) := rfl

/-- Rounding to a narrower float format changes nothing on the extended reals. -/
theorem truncf_eq {s : Shape} {φ ψ : FTy} (a : FVec Ideal s φ) (h : ψ.bits < φ.bits) :
    (truncf ψ a h : s.Idx → EReal) = a := rfl

/-! ## The bias, spread down the rows -/

/-- On the matrix unit: the vector re-laid as one row (twice, the second time onto itself) and spread down `M` rows
    reads, at `(p, q)`, the vector's entry `q`. -/
theorem bias_rows_apply {M N : ℕ} {α : Type} (b : (⟨1, ![N]⟩ : Shape).Idx → α)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) (p : Fin M) (q : Fin N) :
    broadcastTo ⟨2, ![M, N]⟩ (shapeCast ⟨2, ![1, N]⟩ (shapeCast ⟨2, ![1, N]⟩ b h1) h2) h3 (ix2 p q) = b (ix1 q) := by
  rw [broadcastTo_1b_ab_apply, shapeCast_self, shapeCast_a_1a_apply]

/-- By the host: the vector placed along a new leading unit axis and spread down `M` rows reads, at `(p, q)`, the
    vector's entry `q`. -/
theorem bias_host_apply {M N : ℕ} {α : Type} (b : (⟨1, ![N]⟩ : Shape).Idx → α)
    (g1 : (⟨1, ![N]⟩ : Shape).BroadcastsInDim ⟨2, ![1, N]⟩ ![1])
    (g2 : (⟨2, ![1, N]⟩ : Shape).BroadcastsInDim ⟨2, ![M, N]⟩ ![0, 1]) (p : Fin M) (q : Fin N) :
    broadcastInDim ⟨2, ![M, N]⟩ ![0, 1] g2 (broadcastInDim ⟨2, ![1, N]⟩ ![1] g1 b) (ix2 p q) = b (ix1 q) := by
  rw [broadcastInDim_apply ![0, 1] g2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] g1 b (ix2 (0 : Fin 1) q) (ix1 q) (fun ax => by
    match ax with
    | ⟨0, _⟩ =>
      show q.val = if N = 1 then 0 else q.val
      split
      · have := q.isLt; omega
      · rfl)

/-! ## The rectifier -/

/-- On the vector unit: the maximum with a scalar spread over the shape. -/
theorem relu_unit {s : Shape} (y : FVec Ideal s .f32) (w : BitVec 32) :
    maximumf y (broadcast s (Scalar.ofBits (F := Ideal) .f32 w)) = relu (Ideal.ofBits .f32 w) y := rfl

/-- By the host: the maximum with a rank-0 constant spread over the shape. -/
theorem relu_host {s : Shape} (y : FVec Ideal s .f32) (w : BitVec 32)
    (g : (⟨0, ![]⟩ : Shape).BroadcastsInDim s ![]) :
    maximumf y (broadcastInDim s ![] g (constant (F := Ideal) ⟨0, ![]⟩ .f32 w)) = relu (Ideal.ofBits .f32 w) y := by
  funext i
  show max (y i) _ = max (y i) _
  rw [broadcastInDim_apply ![] g _ i ix0 (fun ax => ax.elim0)]
  rfl

/-! ## The layers -/

section
variable {M K N : ℕ}

/-- The dimension numbers of a plain product: no batch axes, the left operand keeps its rows and contracts its
    columns, the right operand contracts its rows and keeps its columns. -/
structure Plain (D : DotDims ⟨2, ![M, K]⟩ ⟨2, ![K, N]⟩ ⟨2, ![M, N]⟩) : Prop where
  lb : D.lhsBatch = []
  rb : D.rhsBatch = []
  ln : D.lhsNonContracting = [0]
  rn : D.rhsNonContracting = [1]
  lc : D.lhsContracting = [1]
  rc : D.rhsContracting = [0]

variable {D : DotDims ⟨2, ![M, K]⟩ ⟨2, ![K, N]⟩ ⟨2, ![M, N]⟩} (hD : Plain D)

include hD in
theorem matmul_at {φ₁ φ₂ : FTy} (a : FVec Ideal ⟨2, ![M, K]⟩ φ₁) (w : FVec Ideal ⟨2, ![K, N]⟩ φ₂) (p : Fin M) (q : Fin N) :
    matmul D none a w (constant ⟨2, ![M, N]⟩ .f32 0x00000000#32) (ix2 p q) = prodAt a w p q :=
  Cert.LibPlainDot.matmul_apply D hD.lb hD.rb hD.ln hD.rn hD.lc hD.rc a w p q

include hD in
theorem dot_at {φ₁ φ₂ : FTy} (a : FVec Ideal ⟨2, ![M, K]⟩ φ₁) (w : FVec Ideal ⟨2, ![K, N]⟩ φ₂) (p : Fin M) (q : Fin N) :
    Host.dotGeneral D none a w (ix2 p q) = prodAt a w p q :=
  Cert.LibPlainDot.dotGeneral_apply D hD.lb hD.rb hD.ln hD.rn hD.lc hD.rc a w p q

include hD in
/-- The dense layer on the matrix unit. -/
theorem dense_unit {φ₁ φ₂ : FTy} (a : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) :
    addf (matmul D none a w (constant ⟨2, ![M, N]⟩ .f32 0x00000000#32))
        (broadcastTo ⟨2, ![M, N]⟩ (shapeCast ⟨2, ![1, N]⟩ (shapeCast ⟨2, ![1, N]⟩ b h1) h2) h3)
      = dense a w b := by
  funext i
  obtain ⟨p, q, rfl⟩ : ∃ (p : Fin M) (q : Fin N), i = ix2 p q := ⟨i 0, i 1, eq_ix2 i⟩
  show matmul D none a w _ (ix2 p q) + broadcastTo _ _ h3 (ix2 p q) = prodAt a w p q + b (ix1 q)
  rw [matmul_at hD, bias_rows_apply]

include hD in
/-- The dense layer by the host. -/
theorem dense_host {φ₁ φ₂ : FTy} (a : FVec Ideal ⟨2, ![M, K]⟩ φ₁) (w : FVec Ideal ⟨2, ![K, N]⟩ φ₂) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1]) :
    addf (Host.dotGeneral D none a w) (broadcastInDim ⟨2, ![M, N]⟩ ![0, 1] g2 (broadcastInDim ⟨2, ![1, N]⟩ ![1] g1 b))
      = dense a w b := by
  funext i
  obtain ⟨p, q, rfl⟩ : ∃ (p : Fin M) (q : Fin N), i = ix2 p q := ⟨i 0, i 1, eq_ix2 i⟩
  show Host.dotGeneral D none a w (ix2 p q) + broadcastInDim _ _ g2 _ (ix2 p q) = prodAt a w p q + b (ix1 q)
  rw [dot_at hD, bias_host_apply]

include hD in
/-- The graph-convolution layer on the matrix unit: both products, then the bias. -/
theorem combine_unit {φ₁ φ₂ φ₃ φ₄ : FTy} (a : FVec Ideal ⟨2, ![M, K]⟩ φ₁) (w : FVec Ideal ⟨2, ![K, N]⟩ φ₂)
    (x : FVec Ideal ⟨2, ![M, K]⟩ φ₃) (w' : FVec Ideal ⟨2, ![K, N]⟩ φ₄) (b : FVec Ideal ⟨1, ![N]⟩ .f32)
    (h1 : (⟨1, ![N]⟩ : Shape).ShapeCasts ⟨2, ![1, N]⟩) (h2 : (⟨2, ![1, N]⟩ : Shape).ShapeCasts ⟨2, ![1, N]⟩)
    (h3 : (⟨2, ![1, N]⟩ : Shape).Broadcasts ⟨2, ![M, N]⟩) :
    addf (addf (matmul D none a w (constant ⟨2, ![M, N]⟩ .f32 0x00000000#32))
          (matmul D none x w' (constant ⟨2, ![M, N]⟩ .f32 0x00000000#32)))
        (broadcastTo ⟨2, ![M, N]⟩ (shapeCast ⟨2, ![1, N]⟩ (shapeCast ⟨2, ![1, N]⟩ b h1) h2) h3)
      = combine a x w w' b := by
  funext i
  obtain ⟨p, q, rfl⟩ : ∃ (p : Fin M) (q : Fin N), i = ix2 p q := ⟨i 0, i 1, eq_ix2 i⟩
  show (matmul D none a w _ (ix2 p q) + matmul D none x w' _ (ix2 p q)) + broadcastTo _ _ h3 (ix2 p q)
    = (prodAt a w p q + prodAt x w' p q) + b (ix1 q)
  rw [matmul_at hD, matmul_at hD, bias_rows_apply]

include hD in
/-- The graph-convolution layer by the host: the first product, the bias, then the second product — the same three
    terms in another order. -/
theorem combine_host {φ₁ φ₂ φ₃ φ₄ : FTy} (a : FVec Ideal ⟨2, ![M, K]⟩ φ₁) (w : FVec Ideal ⟨2, ![K, N]⟩ φ₂)
    (x : FVec Ideal ⟨2, ![M, K]⟩ φ₃) (w' : FVec Ideal ⟨2, ![K, N]⟩ φ₄) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1]) :
    addf (addf (Host.dotGeneral D none a w) (broadcastInDim ⟨2, ![M, N]⟩ ![0, 1] g2 (broadcastInDim ⟨2, ![1, N]⟩ ![1] g1 b)))
        (Host.dotGeneral D none x w')
      = combine a x w w' b := by
  funext i
  obtain ⟨p, q, rfl⟩ : ∃ (p : Fin M) (q : Fin N), i = ix2 p q := ⟨i 0, i 1, eq_ix2 i⟩
  show (Host.dotGeneral D none a w (ix2 p q) + broadcastInDim _ _ g2 _ (ix2 p q)) + Host.dotGeneral D none x w' (ix2 p q)
    = (prodAt a w p q + prodAt x w' p q) + b (ix1 q)
  rw [dot_at hD, dot_at hD, bias_host_apply]
  exact add_right_comm _ _ _

end

end Cert.LibLayer

end
-- ==== Proof.Conv1.lean ====
/-
  The first graph-convolution layer as the kernel computes it, over all the nodes at once.

  The launch walks ten grid points; point `t` loads rows `10000·t … 10000·t + 9999` of the aggregated-neighbour
  matrix and of the node-feature matrix, the two whole weight matrices and the whole bias vector, and stores the
  rectified layer `max ((agg · w + x · w') + b, 0)` of those rows into the same rows of the output. A row of a
  product depends only on the same row of its left operand, so block `t` of the output is block `t` of the layer
  taken over all 100000 rows; the ten blocks tile the output, so after the launch the output array is that layer.
  This holds whatever the buffers hold when the launch is entered.
-/
import proofs.«151422_j9577777070402_1_alg».proof.Proof.Gen.KernelIdeal.Frame
import proofs.«151422_j9577777070402_1_alg».proof.Proof.LibLayer
import Idealize.ShloMosaic.Lib.Pipeline.Value

set_option maxRecDepth 16384

noncomputable section

namespace Cert.KernelIdeal.Conv1

open Cert.KernelIdeal Cert.KernelIdeal.Gen Idealize.ShloMosaic Idealize.ShloMosaic.TcCoe Idealize.SL.Sem
open Idealize.ShloMosaic.ValueIdx Cert.LibLayer
open Idealize.ShloMosaic.Pipeline (Dat)

/-- The rectifier's threshold: the all-zero word read as a number. -/
abbrev zero : EReal := Ideal.ofBits .f32 0x00000000#32

/-- The layer over all the nodes. -/
def layer (A X : Mat 100000 64) (w w' : Mat 64 32) (b : Row 32) : Mat 100000 32 := relu zero (combine A X w w' b)

theorem plain : Plain dot_S10000x64_S64x32_S10000x32_1_0_0_1_n_n := ⟨rfl, rfl, rfl, rfl, rfl, rfl⟩

/-- What one grid point stores, as one function of the blocks it loads: the layer over the block's 10000 rows. -/
theorem stored_eq (v0 v3 : Vec Ideal S10000x64 .f32) (v5 v7 : Vec Ideal S64x32 .f32) (v11 : Vec Ideal S32 .f32) :
    k0_pay1 (F := Ideal) v0 v3 v5 v7 v11 = relu zero (combine (M := 10000) v0 v3 v5 v7 v11) := by
  unfold k0_pay1
  rw [shapeCast_self v0]
  exact (relu_unit _ _).trans (congrArg (relu zero) (combine_unit plain _ _ _ _ _ _ _ _))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block `t`, the weights and the bias at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of block `t` of the aggregated matrix is row `10000·t + p` of the matrix. -/
theorem read_agg (c : Dev nD) (t : Fin cfg0.N) (p : Fin 10000) (k : Fin 64) (P : Fin 100000) (hP : P.val = t.val * 10000 + p.val) :
    iblk0 V c 0 t (ix2 p k) = V c main_v16 (ix2 P k) := by
  show V c main_v16 (((cfg0.win 0).blk t).view.emb (ix2 p k)) = V c main_v16 (ix2 P k)
  obtain ⟨e0, e1, -⟩ := idx_facts t
  refine congrArg _ (funext fun a => Fin.ext ?_)
  match a with
  | ⟨0, _⟩ => show win0_0.index t (0 : Fin 2) * 10000 + 1 * p.val = P.val; omega
  | ⟨1, _⟩ => show win0_0.index t (1 : Fin 2) * 64 + 1 * k.val = k.val; omega

/-- Row `p` of block `t` of the feature matrix is row `10000·t + p` of the matrix. -/
theorem read_feat (c : Dev nD) (t : Fin cfg0.N) (p : Fin 10000) (k : Fin 64) (P : Fin 100000) (hP : P.val = t.val * 10000 + p.val) :
    iblk0 V c 1 t (ix2 p k) = V c main_arg0 (ix2 P k) := by
  show V c main_arg0 (((cfg0.win 1).blk t).view.emb (ix2 p k)) = V c main_arg0 (ix2 P k)
  obtain ⟨-, -, e0, e1, -⟩ := idx_facts t
  refine congrArg _ (funext fun a => Fin.ext ?_)
  match a with
  | ⟨0, _⟩ => show win0_1.index t (0 : Fin 2) * 10000 + 1 * p.val = P.val; omega
  | ⟨1, _⟩ => show win0_1.index t (1 : Fin 2) * 64 + 1 * k.val = k.val; omega

/-- The first weight matrix is loaded whole at every point. -/
theorem read_w (c : Dev nD) (t : Fin cfg0.N) (k : Fin 64) (q : Fin 32) :
    iblk0 V c 2 t (ix2 k q) = V c main_arg4 (ix2 k q) := by
  show V c main_arg4 (((cfg0.win 2).blk t).view.emb (ix2 k q)) = V c main_arg4 (ix2 k q)
  obtain ⟨-, -, -, -, e0, e1, -⟩ := idx_facts t
  refine congrArg _ (funext fun a => Fin.ext ?_)
  match a with
  | ⟨0, _⟩ => show win0_2.index t (0 : Fin 2) * 64 + 1 * k.val = k.val; omega
  | ⟨1, _⟩ => show win0_2.index t (1 : Fin 2) * 32 + 1 * q.val = q.val; omega

/-- The bias vector is loaded whole at every point. -/
theorem read_b (c : Dev nD) (t : Fin cfg0.N) (q : Fin 32) :
    iblk0 V c 3 t (ix1 q) = V c main_arg5 (ix1 q) := by
  show V c main_arg5 (((cfg0.win 3).blk t).view.emb (ix1 q)) = V c main_arg5 (ix1 q)
  obtain ⟨-, -, -, -, -, -, e0, -⟩ := idx_facts t
  refine congrArg _ (funext fun a => Fin.ext ?_)
  match a with
  | ⟨0, _⟩ => show win0_3.index t (0 : Fin 1) * 32 + 1 * q.val = q.val; omega

/-- The second weight matrix is loaded whole at every point. -/
theorem read_w' (c : Dev nD) (t : Fin cfg0.N) (k : Fin 64) (q : Fin 32) :
    iblk0 V c 4 t (ix2 k q) = V c main_arg6 (ix2 k q) := by
  show V c main_arg6 (((cfg0.win 4).blk t).view.emb (ix2 k q)) = V c main_arg6 (ix2 k q)
  obtain ⟨-, -, -, -, -, -, -, e0, e1, -⟩ := idx_facts t
  refine congrArg _ (funext fun a => Fin.ext ?_)
  match a with
  | ⟨0, _⟩ => show win0_4.index t (0 : Fin 2) * 64 + 1 * k.val = k.val; omega
  | ⟨1, _⟩ => show win0_4.index t (1 : Fin 2) * 32 + 1 * q.val = q.val; omega

/-- What point `t` writes back is block `t` of the layer over all the nodes, of the arrays as the launch finds them. -/
theorem flushed_eq (c : Dev nD) (t : Fin cfg0.N) :
    (dat0 V c).flushed 5 t = ((cfg0.win 5).blk t).view.read (Elt Ideal)
      (layer (V c main_v16) (V c main_arg0) (V c main_arg4) (V c main_arg6) (V c main_arg5)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x32) hz2, View.ld_unit_zero (S := S32) hz1]
  rw [stored_eq]
  funext j
  obtain ⟨p, q, rfl⟩ : ∃ (p : Fin 10000) (q : Fin 32), j = ix2 p q := ⟨j 0, j 1, eq_ix2 j⟩
  have hN : grid0.N = 10 := N_0
  have ht : t.val < 10 := by have h : t.val < grid0.N := t.isLt; omega
  have hp : p.val < 10000 := p.isLt
  obtain ⟨-, -, -, -, -, -, -, -, -, e0, e1⟩ := idx_facts t
  obtain ⟨P, hP⟩ : ∃ P : Fin 100000, P.val = t.val * 10000 + p.val := ⟨⟨t.val * 10000 + p.val, by omega⟩, rfl⟩
  have hemb : ((cfg0.win 5).blk t).view.emb (ix2 p q) = ix2 P q :=
    funext fun a => Fin.ext (by
      match a with
      | ⟨0, _⟩ => show win0_5.index t (0 : Fin 2) * 10000 + 1 * p.val = P.val; omega
      | ⟨1, _⟩ => show win0_5.index t (1 : Fin 2) * 32 + 1 * q.val = q.val; omega)
  show max ((prodAt (iblk0 V c 0 t) (iblk0 V c 2 t) p q + prodAt (iblk0 V c 1 t) (iblk0 V c 4 t) p q) + iblk0 V c 3 t (ix1 q)) zero
    = layer (V c main_v16) (V c main_arg0) (V c main_arg4) (V c main_arg6) (V c main_arg5) (((cfg0.win 5).blk t).view.emb (ix2 p q))
  rw [hemb]
  show _ = max ((prodAt (V c main_v16) (V c main_arg4) P q
      + prodAt (V c main_arg0) (V c main_arg6) P q) + V c main_arg5 (ix1 q)) zero
  have e1 : prodAt (iblk0 V c 0 t) (iblk0 V c 2 t) p q
      = prodAt (V c main_v16) (V c main_arg4) P q :=
    Finset.sum_congr rfl fun k _ => by rw [read_agg V c t p k P hP, read_w V c t k q]
  have e2 : prodAt (iblk0 V c 1 t) (iblk0 V c 4 t) p q
      = prodAt (V c main_arg0) (V c main_arg6) P q :=
    Finset.sum_congr rfl fun k _ => by rw [read_feat V c t p k P hP, read_w' V c t k q]
  rw [e1, e2, read_b V c t q]

/-- An index of the output is in point `t`'s block iff each coordinate is in the block's range on its axis. -/
theorem mem_blk (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v17).slice (win0_5.rect t)).set ↔ _
  rw [View.set_slice_whole, Rect.mem_set_unit]
  exact Iff.rfl

/-- Every row of the output lies in the block of the point numbered by its ten-thousands. -/
theorem covered (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 10 := N_0
  have hlt : (i 0).val / 10000 < grid0.N := by omega
  obtain ⟨-, -, -, -, -, -, -, -, -, e0, e1⟩ := idx_facts ⟨(i 0).val / 10000, hlt⟩
  refine ⟨⟨(i 0).val / 10000, hlt⟩, flush0_5 _, ?_⟩
  rw [mem_blk]
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    have e0' : win0_5.index ⟨(i 0).val / 10000, hlt⟩ (0 : Fin 2) = (i 0).val / 10000 := e0
    omega
  | ⟨1, _⟩ =>
    show win0_5.index ⟨(i 0).val / 10000, hlt⟩ (1 : Fin 2) * 32 ≤ (i 1).val
      ∧ (i 1).val < win0_5.index ⟨(i 0).val / 10000, hlt⟩ (1 : Fin 2) * 32 + 32
    omega

/-- The output array after the launch: the layer over all the nodes, of the arrays as the launch finds them. -/
theorem final (c : Dev nD) :
    (dat0 V c).arrAt 5 cfg0.N = layer (V c main_v16) (V c main_arg0) (V c main_arg4) (V c main_arg6) (V c main_arg5) :=
  (dat0 V c).arrAt_eq_of_cover 5 _ (fun t _ => flushed_eq V c t) covered

end Cert.KernelIdeal.Conv1

end
-- ==== Proof.Conv2.lean ====
/-
  The second graph-convolution layer as the kernel computes it, over all the nodes at once.

  The launch walks ten grid points; point `t` loads rows `10000·t … 10000·t + 9999` of the aggregated-neighbour
  matrix and of the node-feature matrix, the two whole weight matrices and the whole bias vector, and stores the
  rectified layer `max ((agg · w + x · w') + b, 0)` of those rows into the same rows of the output. A row of a
  product depends only on the same row of its left operand, so block `t` of the output is block `t` of the layer
  taken over all 100000 rows; the ten blocks tile the output, so after the launch the output array is that layer.
  This holds whatever the buffers hold when the launch is entered.
-/
import proofs.«151422_j9577777070402_1_alg».proof.Proof.Gen.KernelIdeal.Frame
import proofs.«151422_j9577777070402_1_alg».proof.Proof.LibLayer
import Idealize.ShloMosaic.Lib.Pipeline.Value

set_option maxRecDepth 16384

noncomputable section

namespace Cert.KernelIdeal.Conv2

open Cert.KernelIdeal Cert.KernelIdeal.Gen Idealize.ShloMosaic Idealize.ShloMosaic.TcCoe Idealize.SL.Sem
open Idealize.ShloMosaic.ValueIdx Cert.LibLayer
open Idealize.ShloMosaic.Pipeline (Dat)

/-- The rectifier's threshold: the all-zero word read as a number. -/
abbrev zero : EReal := Ideal.ofBits .f32 0x00000000#32

/-- The layer over all the nodes. -/
def layer (A X : Mat 100000 32) (w w' : Mat 32 32) (b : Row 32) : Mat 100000 32 := relu zero (combine A X w w' b)

theorem plain : Plain dot_S10000x32_S32x32_S10000x32_1_0_0_1_n_n := ⟨rfl, rfl, rfl, rfl, rfl, rfl⟩

/-- What one grid point stores, as one function of the blocks it loads: the layer over the block's 10000 rows. -/
theorem stored_eq (v0 v3 : Vec Ideal S10000x32 .f32) (v6 v8 : Vec Ideal S32x32 .f32) (v12 : Vec Ideal S32 .f32) :
    k1_pay1 (F := Ideal) v0 v3 v6 v8 v12 = relu zero (combine (M := 10000) v0 v3 v6 v8 v12) := by
  unfold k1_pay1
  rw [shapeCast_self v0, shapeCast_self v3]
  exact (relu_unit _ _).trans (congrArg (relu zero) (combine_unit plain _ _ _ _ _ _ _ _))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block `t`, the weights and the bias at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of block `t` of the aggregated matrix is row `10000·t + p` of the matrix. -/
theorem read_agg (c : Dev nD) (t : Fin cfg1.N) (p : Fin 10000) (k : Fin 32) (P : Fin 100000) (hP : P.val = t.val * 10000 + p.val) :
    iblk1 V c 0 t (ix2 p k) = V c main_v30 (ix2 P k) := by
  show V c main_v30 (((cfg1.win 0).blk t).view.emb (ix2 p k)) = V c main_v30 (ix2 P k)
  obtain ⟨e0, e1, -⟩ := idx_facts t
  refine congrArg _ (funext fun a => Fin.ext ?_)
  match a with
  | ⟨0, _⟩ => show win1_0.index t (0 : Fin 2) * 10000 + 1 * p.val = P.val; omega
  | ⟨1, _⟩ => show win1_0.index t (1 : Fin 2) * 32 + 1 * k.val = k.val; omega

/-- Row `p` of block `t` of the feature matrix is row `10000·t + p` of the matrix. -/
theorem read_feat (c : Dev nD) (t : Fin cfg1.N) (p : Fin 10000) (k : Fin 32) (P : Fin 100000) (hP : P.val = t.val * 10000 + p.val) :
    iblk1 V c 1 t (ix2 p k) = V c main_v17 (ix2 P k) := by
  show V c main_v17 (((cfg1.win 1).blk t).view.emb (ix2 p k)) = V c main_v17 (ix2 P k)
  obtain ⟨-, -, e0, e1, -⟩ := idx_facts t
  refine congrArg _ (funext fun a => Fin.ext ?_)
  match a with
  | ⟨0, _⟩ => show win1_1.index t (0 : Fin 2) * 10000 + 1 * p.val = P.val; omega
  | ⟨1, _⟩ => show win1_1.index t (1 : Fin 2) * 32 + 1 * k.val = k.val; omega

/-- The first weight matrix is loaded whole at every point. -/
theorem read_w (c : Dev nD) (t : Fin cfg1.N) (k : Fin 32) (q : Fin 32) :
    iblk1 V c 2 t (ix2 k q) = V c main_arg7 (ix2 k q) := by
  show V c main_arg7 (((cfg1.win 2).blk t).view.emb (ix2 k q)) = V c main_arg7 (ix2 k q)
  obtain ⟨-, -, -, -, e0, e1, -⟩ := idx_facts t
  refine congrArg _ (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- The bias vector is loaded whole at every point. -/
theorem read_b (c : Dev nD) (t : Fin cfg1.N) (q : Fin 32) :
    iblk1 V c 3 t (ix1 q) = V c main_arg8 (ix1 q) := by
  show V c main_arg8 (((cfg1.win 3).blk t).view.emb (ix1 q)) = V c main_arg8 (ix1 q)
  obtain ⟨-, -, -, -, -, -, e0, -⟩ := idx_facts t
  refine congrArg _ (funext fun a => Fin.ext ?_)
  match a with
  | ⟨0, _⟩ => show win1_3.index t (0 : Fin 1) * 32 + 1 * q.val = q.val; omega

/-- The second weight matrix is loaded whole at every point. -/
theorem read_w' (c : Dev nD) (t : Fin cfg1.N) (k : Fin 32) (q : Fin 32) :
    iblk1 V c 4 t (ix2 k q) = V c main_arg9 (ix2 k q) := by
  show V c main_arg9 (((cfg1.win 4).blk t).view.emb (ix2 k q)) = V c main_arg9 (ix2 k q)
  obtain ⟨-, -, -, -, -, -, -, e0, e1, -⟩ := idx_facts t
  refine congrArg _ (funext fun a => Fin.ext ?_)
  match a with
  | ⟨0, _⟩ => show win1_4.index t (0 : Fin 2) * 32 + 1 * k.val = k.val; omega
  | ⟨1, _⟩ => show win1_4.index t (1 : Fin 2) * 32 + 1 * q.val = q.val; omega

/-- What point `t` writes back is block `t` of the layer over all the nodes, of the arrays as the launch finds them. -/
theorem flushed_eq (c : Dev nD) (t : Fin cfg1.N) :
    (dat1 V c).flushed 5 t = ((cfg1.win 5).blk t).view.read (Elt Ideal)
      (layer (V c main_v30) (V c main_v17) (V c main_arg7) (V c main_arg9) (V c main_arg8)) := by
  show (cfg1.win 5).cut (grid1.coords t) ((dat1 V c).after 5 t) = _
  rw [after1_5]
  unfold out1_5
  rw [View.canon_unit_zero hz2]
  simp only [View.ld_unit_zero (S := S10000x32) hz2, View.ld_unit_zero (S := S32x32) hz2, View.ld_unit_zero (S := S32) hz1]
  rw [stored_eq]
  funext j
  obtain ⟨p, q, rfl⟩ : ∃ (p : Fin 10000) (q : Fin 32), j = ix2 p q := ⟨j 0, j 1, eq_ix2 j⟩
  have hN : grid1.N = 10 := N_1
  have ht : t.val < 10 := by have h : t.val < grid1.N := t.isLt; omega
  have hp : p.val < 10000 := p.isLt
  obtain ⟨-, -, -, -, -, -, -, -, -, e0, e1⟩ := idx_facts t
  obtain ⟨P, hP⟩ : ∃ P : Fin 100000, P.val = t.val * 10000 + p.val := ⟨⟨t.val * 10000 + p.val, by omega⟩, rfl⟩
  have hemb : ((cfg1.win 5).blk t).view.emb (ix2 p q) = ix2 P q :=
    funext fun a => Fin.ext (by
      match a with
      | ⟨0, _⟩ => show win1_5.index t (0 : Fin 2) * 10000 + 1 * p.val = P.val; omega
      | ⟨1, _⟩ => show win1_5.index t (1 : Fin 2) * 32 + 1 * q.val = q.val; omega)
  show max ((prodAt (iblk1 V c 0 t) (iblk1 V c 2 t) p q + prodAt (iblk1 V c 1 t) (iblk1 V c 4 t) p q) + iblk1 V c 3 t (ix1 q)) zero
    = layer (V c main_v30) (V c main_v17) (V c main_arg7) (V c main_arg9) (V c main_arg8) (((cfg1.win 5).blk t).view.emb (ix2 p q))
  rw [hemb]
  show _ = max ((prodAt (V c main_v30) (V c main_arg7) P q
      + prodAt (V c main_v17) (V c main_arg9) P q) + V c main_arg8 (ix1 q)) zero
  have e1 : prodAt (iblk1 V c 0 t) (iblk1 V c 2 t) p q
      = prodAt (V c main_v30) (V c main_arg7) P q :=
    Finset.sum_congr rfl fun k _ => by rw [read_agg V c t p k P hP, read_w V c t k q]
  have e2 : prodAt (iblk1 V c 1 t) (iblk1 V c 4 t) p q
      = prodAt (V c main_v17) (V c main_arg9) P q :=
    Finset.sum_congr rfl fun k _ => by rw [read_feat V c t p k P hP, read_w' V c t k q]
  rw [e1, e2, read_b V c t q]

/-- An index of the output is in point `t`'s block iff each coordinate is in the block's range on its axis. -/
theorem mem_blk (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v31).slice (win1_5.rect t)).set ↔ _
  rw [View.set_slice_whole, Rect.mem_set_unit]
  exact Iff.rfl

/-- Every row of the output lies in the block of the point numbered by its ten-thousands. -/
theorem covered (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 10 := N_1
  have hlt : (i 0).val / 10000 < grid1.N := by omega
  obtain ⟨-, -, -, -, -, -, -, -, -, e0, e1⟩ := idx_facts ⟨(i 0).val / 10000, hlt⟩
  refine ⟨⟨(i 0).val / 10000, hlt⟩, flush1_5 _, ?_⟩
  rw [mem_blk]
  intro a
  match a with
  | ⟨0, _⟩ =>
    show win1_5.index ⟨(i 0).val / 10000, hlt⟩ (0 : Fin 2) * 10000 ≤ (i 0).val
      ∧ (i 0).val < win1_5.index ⟨(i 0).val / 10000, hlt⟩ (0 : Fin 2) * 10000 + 10000
    have e0' : win1_5.index ⟨(i 0).val / 10000, hlt⟩ (0 : Fin 2) = (i 0).val / 10000 := e0
    omega
  | ⟨1, _⟩ =>
    show win1_5.index ⟨(i 0).val / 10000, hlt⟩ (1 : Fin 2) * 32 ≤ (i 1).val
      ∧ (i 1).val < win1_5.index ⟨(i 0).val / 10000, hlt⟩ (1 : Fin 2) * 32 + 32
    omega

/-- The output array after the launch: the layer over all the nodes, of the arrays as the launch finds them. -/
theorem final (c : Dev nD) :
    (dat1 V c).arrAt 5 cfg1.N = layer (V c main_v30) (V c main_v17) (V c main_arg7) (V c main_arg9) (V c main_arg8) :=
  (dat1 V c).arrAt_eq_of_cover 5 _ (fun t _ => flushed_eq V c t) covered

end Cert.KernelIdeal.Conv2

end
-- ==== Proof.Head.lean ====
/-
  The MLP head as the kernel computes it.

  The launch has one grid point, which loads the pooled graph features, three weight matrices and three bias vectors
  whole, and stores `relu (relu (g · w1 + b1) · w2 + b2) · w3 + b3` whole: every window's one block is its whole
  array, so after the launch the output array is that function of the arrays as the launch finds them.
-/
import proofs.«151422_j9577777070402_1_alg».proof.Proof.Gen.KernelIdeal.Frame
import proofs.«151422_j9577777070402_1_alg».proof.Proof.LibLayer
import Idealize.ShloMosaic.Lib.Pipeline.Value

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx Cert.LibLayer
open Idealize.ShloMosaic.Pipeline (Dat)

/-- The rectifier's threshold: the all-zero word read as a number. -/
abbrev zero : EReal := Ideal.ofBits .f32 0x00000000#32

/-- Three dense layers, the first two rectified. -/
def head (g : Mat 256 32) (w1 : Mat 32 32) (b1 : Row 32) (w2 : Mat 32 16) (b2 : Row 16) (w3 : Mat 16 1) (b3 : Row 1) : Mat 256 1 :=
  dense (relu zero (dense (relu zero (dense g w1 b1)) w2 b2)) w3 b3

theorem plain1 : Plain dot_S256x32_S32x32_S256x32_1_0_0_1_n_n := ⟨rfl, rfl, rfl, rfl, rfl, rfl⟩
theorem plain2 : Plain dot_S256x32_S32x16_S256x16_1_0_0_1_n_n := ⟨rfl, rfl, rfl, rfl, rfl, rfl⟩
theorem plain3 : Plain dot_S256x16_S16x1_S256x1_1_0_0_1_n_n := ⟨rfl, rfl, rfl, rfl, rfl, rfl⟩

/-- What the grid point stores, as one function of what it loads. -/
theorem stored_eq (v0 : Vec Ideal S256x32 .f32) (v3 : Vec Ideal S32x32 .f32) (v6 : Vec Ideal S32 .f32) (v13 : Vec Ideal S32x16 .f32)
    (v17 : Vec Ideal S16 .f32) (v24 : Vec Ideal S16x1 .f32) (v28 : Vec Ideal S1 .f32) :
    k2_pay1 (F := Ideal) v0 v3 v6 v13 v17 v24 v28 = head v0 v3 v6 v13 v17 v24 v28 := by
  unfold k2_pay1 head
  dsimp only
  rw [shapeCast_self v0, dense_unit plain1, relu_unit, dense_unit plain2, relu_unit, dense_unit plain3]
  rfl

theorem hz2 : (![0, 0] : Fin 2 → Nat) = fun _ => 0 := funext fun a => by fin_cases a <;> rfl
theorem hz1 : (![0] : Fin 1 → Nat) = fun _ => 0 := funext fun a => by fin_cases a <;> rfl

/-- The printed index maps at the one grid point: every window is at block 0 on every axis. -/
theorem idx_facts : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = 0
    ∧ win2_7.index t (1 : Fin 2) = 0 :=
  (by decide +kernel : ∀ t : Fin grid2.N, _)

variable (V : (c : Dev nD) → (b : Ref sig .tc) → Buf (Elt Ideal) ((c : Thread nD τ).loc b))

/-- Window 0's one block is its whole array. -/
theorem read0 (c : Dev nD) (t : Fin cfg2.N) : (iblk2 V c 0 t : S256x32.Idx → EReal) = V c main_v43 := by
  funext y
  show V c main_v43 (((cfg2.win 0).blk t).view.emb y) = V c main_v43 y
  have f0 : win2_0.index t (0 : Fin 2) = 0 := (idx_facts t).1
  have f1 : win2_0.index t (1 : Fin 2) = 0 := (idx_facts t).2.1
  refine congrArg _ (funext fun a => Fin.ext ?_)
  match a with
    | ⟨0, _⟩ => show win2_0.index t (0 : Fin 2) * 256 + 1 * (y 0).val = (y 0).val; omega
    | ⟨1, _⟩ => show win2_0.index t (1 : Fin 2) * 32 + 1 * (y 1).val = (y 1).val; omega

/-- Window 1's one block is its whole array. -/
theorem read1 (c : Dev nD) (t : Fin cfg2.N) : (iblk2 V c 1 t : S32x32.Idx → EReal) = V c main_arg10 := by
  funext y
  show V c main_arg10 (((cfg2.win 1).blk t).view.emb y) = V c main_arg10 y
  have f0 : win2_1.index t (0 : Fin 2) = 0 := (idx_facts t).2.2.1
  have f1 : win2_1.index t (1 : Fin 2) = 0 := (idx_facts t).2.2.2.1
  refine congrArg _ (funext fun a => Fin.ext ?_)
  match a with
    | ⟨0, _⟩ => show win2_1.index t (0 : Fin 2) * 32 + 1 * (y 0).val = (y 0).val; omega
    | ⟨1, _⟩ => show win2_1.index t (1 : Fin 2) * 32 + 1 * (y 1).val = (y 1).val; omega

/-- Window 2's one block is its whole array. -/
theorem read2 (c : Dev nD) (t : Fin cfg2.N) : (iblk2 V c 2 t : S32.Idx → EReal) = V c main_arg11 := by
  funext y
  show V c main_arg11 (((cfg2.win 2).blk t).view.emb y) = V c main_arg11 y
  have f0 : win2_2.index t (0 : Fin 1) = 0 := (idx_facts t).2.2.2.2.1
  refine congrArg _ (funext fun a => Fin.ext ?_)
  match a with
    | ⟨0, _⟩ => show win2_2.index t (0 : Fin 1) * 32 + 1 * (y 0).val = (y 0).val; omega

/-- Window 3's one block is its whole array. -/
theorem read3 (c : Dev nD) (t : Fin cfg2.N) : (iblk2 V c 3 t : S32x16.Idx → EReal) = V c main_arg12 := by
  funext y
  show V c main_arg12 (((cfg2.win 3).blk t).view.emb y) = V c main_arg12 y
  have f0 : win2_3.index t (0 : Fin 2) = 0 := (idx_facts t).2.2.2.2.2.1
  have f1 : win2_3.index t (1 : Fin 2) = 0 := (idx_facts t).2.2.2.2.2.2.1
  refine congrArg _ (funext fun a => Fin.ext ?_)
  match a with
    | ⟨0, _⟩ => show win2_3.index t (0 : Fin 2) * 32 + 1 * (y 0).val = (y 0).val; omega
    | ⟨1, _⟩ => show win2_3.index t (1 : Fin 2) * 16 + 1 * (y 1).val = (y 1).val; omega

/-- Window 4's one block is its whole array. -/
theorem read4 (c : Dev nD) (t : Fin cfg2.N) : (iblk2 V c 4 t : S16.Idx → EReal) = V c main_arg13 := by
  funext y
  show V c main_arg13 (((cfg2.win 4).blk t).view.emb y) = V c main_arg13 y
  have f0 : win2_4.index t (0 : Fin 1) = 0 := (idx_facts t).2.2.2.2.2.2.2.1
  refine congrArg _ (funext fun a => Fin.ext ?_)
  match a with
    | ⟨0, _⟩ => show win2_4.index t (0 : Fin 1) * 16 + 1 * (y 0).val = (y 0).val; omega

/-- Window 5's one block is its whole array. -/
theorem read5 (c : Dev nD) (t : Fin cfg2.N) : (iblk2 V c 5 t : S16x1.Idx → EReal) = V c main_arg14 := by
  funext y
  show V c main_arg14 (((cfg2.win 5).blk t).view.emb y) = V c main_arg14 y
  have f0 : win2_5.index t (0 : Fin 2) = 0 := (idx_facts t).2.2.2.2.2.2.2.2.1
  have f1 : win2_5.index t (1 : Fin 2) = 0 := (idx_facts t).2.2.2.2.2.2.2.2.2.1
  refine congrArg _ (funext fun a => Fin.ext ?_)
  match a with
    | ⟨0, _⟩ => show win2_5.index t (0 : Fin 2) * 16 + 1 * (y 0).val = (y 0).val; omega
    | ⟨1, _⟩ => show win2_5.index t (1 : Fin 2) * 1 + 1 * (y 1).val = (y 1).val; omega

/-- Window 6's one block is its whole array. -/
theorem read6 (c : Dev nD) (t : Fin cfg2.N) : (iblk2 V c 6 t : S1.Idx → EReal) = V c main_arg15 := by
  funext y
  show V c main_arg15 (((cfg2.win 6).blk t).view.emb y) = V c main_arg15 y
  have f0 : win2_6.index t (0 : Fin 1) = 0 := (idx_facts t).2.2.2.2.2.2.2.2.2.2.1
  refine congrArg _ (funext fun a => Fin.ext ?_)
  match a with
    | ⟨0, _⟩ => show win2_6.index t (0 : Fin 1) * 1 + 1 * (y 0).val = (y 0).val; omega

/-- What the grid point writes back is the one block of the head's result, of the arrays as the launch finds them. -/
theorem flushed_eq (c : Dev nD) (t : Fin cfg2.N) :
    (dat2 V c).flushed 7 t = ((cfg2.win 7).blk t).view.read (Elt Ideal)
      (head (V c main_v43) (V c main_arg10) (V c main_arg11) (V c main_arg12) (V c main_arg13) (V c main_arg14) (V c main_arg15)) := by
  show (cfg2.win 7).cut (grid2.coords t) ((dat2 V c).after 7 t) = _
  rw [after2_7]
  unfold out2_7
  rw [View.canon_unit_zero hz2]
  simp only [View.ld_unit_zero (S := S256x32) hz2, View.ld_unit_zero (S := S32x32) hz2, View.ld_unit_zero (S := S32) hz1,
    View.ld_unit_zero (S := S32x16) hz2, View.ld_unit_zero (S := S16) hz1, View.ld_unit_zero (S := S16x1) hz2,
    View.ld_unit_zero (S := S1) hz1]
  rw [stored_eq, read0 V c t, read1 V c t, read2 V c t, read3 V c t, read4 V c t, read5 V c t, read6 V c t]
  funext j
  have f0 : win2_7.index t (0 : Fin 2) = 0 := (idx_facts t).2.2.2.2.2.2.2.2.2.2.2.1
  have f1 : win2_7.index t (1 : Fin 2) = 0 := (idx_facts t).2.2.2.2.2.2.2.2.2.2.2.2
  have hemb : ((cfg2.win 7).blk t).view.emb j = j := funext fun a => Fin.ext (by
    match a with
    | ⟨0, _⟩ => show win2_7.index t (0 : Fin 2) * 256 + 1 * (j 0).val = (j 0).val; omega
    | ⟨1, _⟩ => show win2_7.index t (1 : Fin 2) * 1 + 1 * (j 1).val = (j 1).val; omega)
  show _ = head _ _ _ _ _ _ _ (((cfg2.win 7).blk t).view.emb j)
  rw [hemb]

/-- An index of the output is in the point's block iff each coordinate is in the block's range on its axis. -/
theorem mem_blk (t : Fin cfg2.N) (i : S256x1.Idx) :
    i ∈ ((cfg2.win 7).blk t).view.set ↔ ∀ a : Fin 2, win2_7.index t a * S256x1.size a ≤ (i a).val
      ∧ (i a).val < win2_7.index t a * S256x1.size a + S256x1.size a := by
  show i ∈ ((View.whole main_v44).slice (win2_7.rect t)).set ↔ _
  rw [View.set_slice_whole, Rect.mem_set_unit]
  exact Iff.rfl

/-- The one block covers the output. -/
theorem covered (i : S256x1.Idx) :
    ∃ t : Fin cfg2.N, (cfg2.win 7).flush t = true ∧ i ∈ ((cfg2.win 7).blk t).view.set := by
  have hi0 : (i 0).val < 256 := (i 0).isLt
  have hi1 : (i 1).val < 1 := (i 1).isLt
  have hN : grid2.N = 1 := N_2
  have hlt : 0 < grid2.N := by omega
  have f0 : win2_7.index ⟨0, hlt⟩ (0 : Fin 2) = 0 := (idx_facts ⟨0, hlt⟩).2.2.2.2.2.2.2.2.2.2.2.1
  have f1 : win2_7.index ⟨0, hlt⟩ (1 : Fin 2) = 0 := (idx_facts ⟨0, hlt⟩).2.2.2.2.2.2.2.2.2.2.2.2
  refine ⟨⟨0, hlt⟩, flush2_7 _, ?_⟩
  rw [mem_blk]
  intro a
  match a with
  | ⟨0, _⟩ =>
    show win2_7.index ⟨0, hlt⟩ (0 : Fin 2) * 256 ≤ (i 0).val ∧ (i 0).val < win2_7.index ⟨0, hlt⟩ (0 : Fin 2) * 256 + 256
    omega
  | ⟨1, _⟩ =>
    show win2_7.index ⟨0, hlt⟩ (1 : Fin 2) * 1 ≤ (i 1).val ∧ (i 1).val < win2_7.index ⟨0, hlt⟩ (1 : Fin 2) * 1 + 1
    omega

/-- The output array after the launch: the head's result, of the arrays as the launch finds them. -/
theorem final (c : Dev nD) :
    (dat2 V c).arrAt 7 cfg2.N
      = head (V c main_v43) (V c main_arg10) (V c main_arg11) (V c main_arg12) (V c main_arg13) (V c main_arg14) (V c main_arg15) :=
  (dat2 V c).arrAt_eq_of_cover 7 _ (fun t _ => flushed_eq V c t) covered

end Cert.KernelIdeal.Head

end
-- ==== Proof.RefLayers.lean ====
/-
  The reference's dense layers, each as one whole-array function of its inputs.

  The reference computes each graph-convolution layer as `relu ((agg · w + b) + x · w')` over all the nodes with the
  host's general matrix product, and the head as three dense layers `a · w + b`, the first two rectified. Read one
  entry at a time these are the layers of the layer library: for a graph-convolution layer the three terms are
  added in another order than the library's, which changes nothing on the extended reals.
-/
import proofs.«151422_j9577777070402_1_alg».proof.Proof.Gen.ReferenceIdeal.Read
import proofs.«151422_j9577777070402_1_alg».proof.Proof.LibLayer

noncomputable section

namespace Cert.ReferenceIdeal.Layers

open Cert.ReferenceIdeal Cert.ReferenceIdeal.Read Idealize.ShloMosaic Idealize.ShloMosaic.TcCoe Cert.LibLayer

/-- The rectifier's threshold: the all-zero word read as a number. -/
abbrev zero : EReal := Ideal.ofBits .f32 0x00000000#32

theorem plainA : Plain dot_S100000x64_S64x32_S100000x32_1_0_0_1_n_n := ⟨rfl, rfl, rfl, rfl, rfl, rfl⟩
theorem plainB : Plain dot_S100000x32_S32x32_S100000x32_1_0_0_1_n_n := ⟨rfl, rfl, rfl, rfl, rfl, rfl⟩
theorem plain1 : Plain dot_S256x32_S32x32_S256x32_1_0_0_1_n_n := ⟨rfl, rfl, rfl, rfl, rfl, rfl⟩
theorem plain2 : Plain dot_S256x32_S32x16_S256x16_1_0_0_1_n_n := ⟨rfl, rfl, rfl, rfl, rfl, rfl⟩
theorem plain3 : Plain dot_S256x16_S16x1_S256x1_1_0_0_1_n_n := ⟨rfl, rfl, rfl, rfl, rfl, rfl⟩

/-- The first graph-convolution layer: of the aggregated neighbours, the node features, the two weight matrices and
    the bias. -/
theorem layer1 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) :
    val_main_v23 (F := Ideal) x0 x1 x2 x4 x5 x6
      = relu zero (combine (M := 100000) (val_main_v16 (F := Ideal) x0 x1 x2) x0 x4 x6 x5) := by
  unfold val_main_v23 val_main_v22 val_main_v20 val_main_v21 val_main_v19 val_main_v18 val_main_v17 val_main_call0_v0 val_main_call0_cst
  rw [combine_host plainA, relu_host]

/-- The second graph-convolution layer: of the aggregated first-layer features, the first-layer features, the two
    weight matrices and the bias. -/
theorem layer2 (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) :
    val_main_v43 (F := Ideal) x0 x1 x2 x4 x5 x6 x7 x8 x9
      = relu zero (combine (M := 100000) (val_main_v36 (F := Ideal) x0 x1 x2 x4 x5 x6) (val_main_v23 (F := Ideal) x0 x1 x2 x4 x5 x6) x7 x9 x8) := by
  unfold val_main_v43 val_main_v42 val_main_v40 val_main_v41 val_main_v39 val_main_v38 val_main_v37 val_main_call1_v0 val_main_call1_cst
  rw [combine_host plainB, relu_host]

/-- The head: three dense layers of the pooled graph features, the first two rectified. -/
theorem head (x0 : (⟨S100000x64, .f32⟩ : BufTy).Contents (Elt Ideal)) (x1 : (⟨S2x1600000, .i32⟩ : BufTy).Contents (Elt Ideal)) (x2 : (⟨S1600000, .f32⟩ : BufTy).Contents (Elt Ideal)) (x3 : (⟨S100000, .i32⟩ : BufTy).Contents (Elt Ideal)) (x4 : (⟨S64x32, .f32⟩ : BufTy).Contents (Elt Ideal)) (x5 : (⟨S32, .f32⟩ : BufTy).Contents (Elt Ideal)) (x6 : (⟨S64x32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32x32, .f32⟩ : BufTy).Contents (Elt Ideal)) (x11 : (⟨S32, .f32⟩ : BufTy).Contents (Elt Ideal)) (x12 : (⟨S32x16, .f32⟩ : BufTy).Contents (Elt Ideal)) (x13 : (⟨S16, .f32⟩ : BufTy).Contents (Elt Ideal)) (x14 : (⟨S16x1, .f32⟩ : BufTy).Contents (Elt Ideal)) (x15 : (⟨S1, .f32⟩ : BufTy).Contents (Elt Ideal)) :
    val_main_v69 (F := Ideal) x0 x1 x2 x3 x4 x5 x6 x7 x8 x9 x10 x11 x12 x13 x14 x15
      = dense (relu zero (dense (relu zero (dense (M := 256) (val_main_v55 (F := Ideal) x0 x1 x2 x3 x4 x5 x6 x7 x8 x9) x10 x11)) x12 x13)) x14 x15 := by
  unfold val_main_v69 val_main_v68 val_main_v67 val_main_v66 val_main_v65 val_main_call3_v0 val_main_call3_cst val_main_v64 val_main_v63
    val_main_v62 val_main_v61 val_main_v60 val_main_call2_v0 val_main_call2_cst val_main_v59 val_main_v58 val_main_v57 val_main_v56
  rw [dense_host plain1, relu_host, dense_host plain2, relu_host, dense_host plain3]

end Cert.ReferenceIdeal.Layers

end
-- ==== Proof.Fold.lean ====
/-
  The idealized kernel's result, read back through @main's six segments to the arguments.

  Going down the program: the first host stretch gathers each edge's source-node features, scales them by the edge's
  weight and sums them into the edge's destination node; the first launch turns that and the node features into the
  first layer's features; the second stretch does the same gather, scale and sum on those; the second launch gives
  the second layer's features; the third stretch sums them per graph and divides by the graph's node count (at least
  one); the third launch applies the head. A host stretch is the same operations as the reference's, applied to
  whatever the stage before left, so each stage's buffer is the reference's corresponding stage function of the
  arguments — a launch's output by the layer it computes (the kernel's closed form on one side, the reference's layer
  read entry by entry on the other), a host stretch's by its text. The last stage is the program's result.
-/
import proofs.«151422_j9577777070402_1_alg».proof.Proof.Gen.KernelIdeal.Frame
import proofs.«151422_j9577777070402_1_alg».proof.Proof.Conv1
import proofs.«151422_j9577777070402_1_alg».proof.Proof.Conv2
import proofs.«151422_j9577777070402_1_alg».proof.Proof.Head
import proofs.«151422_j9577777070402_1_alg».proof.Proof.RefLayers
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read (val_main_v1 val_main_v3 val_main_v16 val_main_v23 val_main_v36 val_main_v43 val_main_v55 val_main_v69)

variable (m : (ℓ : Loc nD τ sig) → Buf (Elt Ideal) ℓ) (ρ : Dev nD → PrngReg) (c : Dev nD)

/-! ## The first host stretch, from the launch memory -/

/-- The edges' source-node numbers. -/
theorem s0_v1 : W1 m ρ c (Proc.devRef .tc main_v1) = val_main_v1 (F := Ideal) (m ((c.tc : Thread nD τ).loc main_arg1)) := by
  dsimp only [W1, hostOps0]
  after_results
  rfl

/-- The edges' destination-node numbers. -/
theorem s0_v3 : W1 m ρ c (Proc.devRef .tc main_v3) = val_main_v3 (F := Ideal) (m ((c.tc : Thread nD τ).loc main_arg1)) := by
  dsimp only [W1, hostOps0]
  after_results
  rfl

set_option maxHeartbeats 8000000 in
/-- The node features aggregated over incoming edges. -/
theorem s0_v16 : W1 m ρ c (Proc.devRef .tc main_v16) = val_main_v16 (F := Ideal) (m ((c.tc : Thread nD τ).loc main_arg0)) (m ((c.tc : Thread nD τ).loc main_arg1)) (m ((c.tc : Thread nD τ).loc main_arg2)) := by
  dsimp only [W1, hostOps0]
  after_results_simp <;> rfl

theorem s0_a0 : W1 m ρ c (Proc.devRef .tc main_arg0) = m ((c.tc : Thread nD τ).loc main_arg0) := by
  dsimp only [W1, hostOps0]
  after_results
theorem s0_a2 : W1 m ρ c (Proc.devRef .tc main_arg2) = m ((c.tc : Thread nD τ).loc main_arg2) := by
  dsimp only [W1, hostOps0]
  after_results
theorem s0_a3 : W1 m ρ c (Proc.devRef .tc main_arg3) = m ((c.tc : Thread nD τ).loc main_arg3) := by
  dsimp only [W1, hostOps0]
  after_results
theorem s0_a4 : W1 m ρ c (Proc.devRef .tc main_arg4) = m ((c.tc : Thread nD τ).loc main_arg4) := by
  dsimp only [W1, hostOps0]
  after_results
theorem s0_a5 : W1 m ρ c (Proc.devRef .tc main_arg5) = m ((c.tc : Thread nD τ).loc main_arg5) := by
  dsimp only [W1, hostOps0]
  after_results
theorem s0_a6 : W1 m ρ c (Proc.devRef .tc main_arg6) = m ((c.tc : Thread nD τ).loc main_arg6) := by
  dsimp only [W1, hostOps0]
  after_results
theorem s0_a7 : W1 m ρ c (Proc.devRef .tc main_arg7) = m ((c.tc : Thread nD τ).loc main_arg7) := by
  dsimp only [W1, hostOps0]
  after_results
theorem s0_a8 : W1 m ρ c (Proc.devRef .tc main_arg8) = m ((c.tc : Thread nD τ).loc main_arg8) := by
  dsimp only [W1, hostOps0]
  after_results
theorem s0_a9 : W1 m ρ c (Proc.devRef .tc main_arg9) = m ((c.tc : Thread nD τ).loc main_arg9) := by
  dsimp only [W1, hostOps0]
  after_results
theorem s0_a10 : W1 m ρ c (Proc.devRef .tc main_arg10) = m ((c.tc : Thread nD τ).loc main_arg10) := by
  dsimp only [W1, hostOps0]
  after_results
theorem s0_a11 : W1 m ρ c (Proc.devRef .tc main_arg11) = m ((c.tc : Thread nD τ).loc main_arg11) := by
  dsimp only [W1, hostOps0]
  after_results
theorem s0_a12 : W1 m ρ c (Proc.devRef .tc main_arg12) = m ((c.tc : Thread nD τ).loc main_arg12) := by
  dsimp only [W1, hostOps0]
  after_results
theorem s0_a13 : W1 m ρ c (Proc.devRef .tc main_arg13) = m ((c.tc : Thread nD τ).loc main_arg13) := by
  dsimp only [W1, hostOps0]
  after_results
theorem s0_a14 : W1 m ρ c (Proc.devRef .tc main_arg14) = m ((c.tc : Thread nD τ).loc main_arg14) := by
  dsimp only [W1, hostOps0]
  after_results
theorem s0_a15 : W1 m ρ c (Proc.devRef .tc main_arg15) = m ((c.tc : Thread nD τ).loc main_arg15) := by
  dsimp only [W1, hostOps0]
  after_results

/-! ## The first launch -/

/-- The first layer's features. -/
theorem r0_v17 : W2 m ρ c (Proc.devRef .tc main_v17) = val_main_v23 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  rw [show W2 m ρ c (Proc.devRef .tc main_v17) = (dat0 (V1 m ρ) c).arrAt 5 cfg0.N from W2_arr m ρ c 5, Conv1.final (V1 m ρ) c]
  show Conv1.layer (W1 m ρ c (Proc.devRef .tc main_v16)) (W1 m ρ c (Proc.devRef .tc main_arg0)) (W1 m ρ c (Proc.devRef .tc main_arg4))
    (W1 m ρ c (Proc.devRef .tc main_arg6)) (W1 m ρ c (Proc.devRef .tc main_arg5)) = _
  rw [s0_v16 m ρ c, s0_a0 m ρ c, s0_a4 m ρ c, s0_a6 m ρ c, s0_a5 m ρ c, Cert.ReferenceIdeal.Layers.layer1]
  rfl

theorem c0_v1 : W2 m ρ c (Proc.devRef .tc main_v1) = val_main_v1 (F := Ideal) (m ((c.tc : Thread nD τ).loc main_arg1)) :=
  (W2_of_ne m ρ c main_v1 (by decide)).trans (s0_v1 m ρ c)
theorem c0_v3 : W2 m ρ c (Proc.devRef .tc main_v3) = val_main_v3 (F := Ideal) (m ((c.tc : Thread nD τ).loc main_arg1)) :=
  (W2_of_ne m ρ c main_v3 (by decide)).trans (s0_v3 m ρ c)
theorem c0_a2 : W2 m ρ c (Proc.devRef .tc main_arg2) = m ((c.tc : Thread nD τ).loc main_arg2) :=
  (W2_of_ne m ρ c main_arg2 (by decide)).trans (s0_a2 m ρ c)
theorem c0_a3 : W2 m ρ c (Proc.devRef .tc main_arg3) = m ((c.tc : Thread nD τ).loc main_arg3) :=
  (W2_of_ne m ρ c main_arg3 (by decide)).trans (s0_a3 m ρ c)
theorem c0_a7 : W2 m ρ c (Proc.devRef .tc main_arg7) = m ((c.tc : Thread nD τ).loc main_arg7) :=
  (W2_of_ne m ρ c main_arg7 (by decide)).trans (s0_a7 m ρ c)
theorem c0_a8 : W2 m ρ c (Proc.devRef .tc main_arg8) = m ((c.tc : Thread nD τ).loc main_arg8) :=
  (W2_of_ne m ρ c main_arg8 (by decide)).trans (s0_a8 m ρ c)
theorem c0_a9 : W2 m ρ c (Proc.devRef .tc main_arg9) = m ((c.tc : Thread nD τ).loc main_arg9) :=
  (W2_of_ne m ρ c main_arg9 (by decide)).trans (s0_a9 m ρ c)
theorem c0_a10 : W2 m ρ c (Proc.devRef .tc main_arg10) = m ((c.tc : Thread nD τ).loc main_arg10) :=
  (W2_of_ne m ρ c main_arg10 (by decide)).trans (s0_a10 m ρ c)
theorem c0_a11 : W2 m ρ c (Proc.devRef .tc main_arg11) = m ((c.tc : Thread nD τ).loc main_arg11) :=
  (W2_of_ne m ρ c main_arg11 (by decide)).trans (s0_a11 m ρ c)
theorem c0_a12 : W2 m ρ c (Proc.devRef .tc main_arg12) = m ((c.tc : Thread nD τ).loc main_arg12) :=
  (W2_of_ne m ρ c main_arg12 (by decide)).trans (s0_a12 m ρ c)
theorem c0_a13 : W2 m ρ c (Proc.devRef .tc main_arg13) = m ((c.tc : Thread nD τ).loc main_arg13) :=
  (W2_of_ne m ρ c main_arg13 (by decide)).trans (s0_a13 m ρ c)
theorem c0_a14 : W2 m ρ c (Proc.devRef .tc main_arg14) = m ((c.tc : Thread nD τ).loc main_arg14) :=
  (W2_of_ne m ρ c main_arg14 (by decide)).trans (s0_a14 m ρ c)
theorem c0_a15 : W2 m ρ c (Proc.devRef .tc main_arg15) = m ((c.tc : Thread nD τ).loc main_arg15) :=
  (W2_of_ne m ρ c main_arg15 (by decide)).trans (s0_a15 m ρ c)

/-! ## The second host stretch -/

set_option maxHeartbeats 8000000 in
/-- The first layer's features aggregated over incoming edges. -/
theorem s1_v30 : W3 m ρ c (Proc.devRef .tc main_v30) = val_main_v36 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  dsimp only [W3, hostOps1]
  after_results_simp
  rw [r0_v17 m ρ c, c0_v1 m ρ c, c0_v3 m ρ c, c0_a2 m ρ c]
  rfl

/-- The first layer's features are still there. -/
theorem s1_v17 : W3 m ρ c (Proc.devRef .tc main_v17) = val_main_v23 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  dsimp only [W3, hostOps1]
  after_results
  exact r0_v17 m ρ c

theorem s1_a3 : W3 m ρ c (Proc.devRef .tc main_arg3) = m ((c.tc : Thread nD τ).loc main_arg3) := by
  dsimp only [W3, hostOps1]
  after_results
  exact c0_a3 m ρ c
theorem s1_a7 : W3 m ρ c (Proc.devRef .tc main_arg7) = m ((c.tc : Thread nD τ).loc main_arg7) := by
  dsimp only [W3, hostOps1]
  after_results
  exact c0_a7 m ρ c
theorem s1_a8 : W3 m ρ c (Proc.devRef .tc main_arg8) = m ((c.tc : Thread nD τ).loc main_arg8) := by
  dsimp only [W3, hostOps1]
  after_results
  exact c0_a8 m ρ c
theorem s1_a9 : W3 m ρ c (Proc.devRef .tc main_arg9) = m ((c.tc : Thread nD τ).loc main_arg9) := by
  dsimp only [W3, hostOps1]
  after_results
  exact c0_a9 m ρ c
theorem s1_a10 : W3 m ρ c (Proc.devRef .tc main_arg10) = m ((c.tc : Thread nD τ).loc main_arg10) := by
  dsimp only [W3, hostOps1]
  after_results
  exact c0_a10 m ρ c
theorem s1_a11 : W3 m ρ c (Proc.devRef .tc main_arg11) = m ((c.tc : Thread nD τ).loc main_arg11) := by
  dsimp only [W3, hostOps1]
  after_results
  exact c0_a11 m ρ c
theorem s1_a12 : W3 m ρ c (Proc.devRef .tc main_arg12) = m ((c.tc : Thread nD τ).loc main_arg12) := by
  dsimp only [W3, hostOps1]
  after_results
  exact c0_a12 m ρ c
theorem s1_a13 : W3 m ρ c (Proc.devRef .tc main_arg13) = m ((c.tc : Thread nD τ).loc main_arg13) := by
  dsimp only [W3, hostOps1]
  after_results
  exact c0_a13 m ρ c
theorem s1_a14 : W3 m ρ c (Proc.devRef .tc main_arg14) = m ((c.tc : Thread nD τ).loc main_arg14) := by
  dsimp only [W3, hostOps1]
  after_results
  exact c0_a14 m ρ c
theorem s1_a15 : W3 m ρ c (Proc.devRef .tc main_arg15) = m ((c.tc : Thread nD τ).loc main_arg15) := by
  dsimp only [W3, hostOps1]
  after_results
  exact c0_a15 m ρ c

/-! ## The second launch -/

/-- The second layer's features. -/
theorem r1_v31 : W4 m ρ c (Proc.devRef .tc main_v31) = val_main_v43 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show W4 m ρ c (Proc.devRef .tc main_v31) = (dat1 (V3 m ρ) c).arrAt 5 cfg1.N from W4_arr m ρ c 5, Conv2.final (V3 m ρ) c]
  show Conv2.layer (W3 m ρ c (Proc.devRef .tc main_v30)) (W3 m ρ c (Proc.devRef .tc main_v17)) (W3 m ρ c (Proc.devRef .tc main_arg7))
    (W3 m ρ c (Proc.devRef .tc main_arg9)) (W3 m ρ c (Proc.devRef .tc main_arg8)) = _
  rw [s1_v30 m ρ c, s1_v17 m ρ c, s1_a7 m ρ c, s1_a9 m ρ c, s1_a8 m ρ c, Cert.ReferenceIdeal.Layers.layer2]
  rfl

theorem c1_a3 : W4 m ρ c (Proc.devRef .tc main_arg3) = m ((c.tc : Thread nD τ).loc main_arg3) :=
  (W4_of_ne m ρ c main_arg3 (by decide)).trans (s1_a3 m ρ c)
theorem c1_a10 : W4 m ρ c (Proc.devRef .tc main_arg10) = m ((c.tc : Thread nD τ).loc main_arg10) :=
  (W4_of_ne m ρ c main_arg10 (by decide)).trans (s1_a10 m ρ c)
theorem c1_a11 : W4 m ρ c (Proc.devRef .tc main_arg11) = m ((c.tc : Thread nD τ).loc main_arg11) :=
  (W4_of_ne m ρ c main_arg11 (by decide)).trans (s1_a11 m ρ c)
theorem c1_a12 : W4 m ρ c (Proc.devRef .tc main_arg12) = m ((c.tc : Thread nD τ).loc main_arg12) :=
  (W4_of_ne m ρ c main_arg12 (by decide)).trans (s1_a12 m ρ c)
theorem c1_a13 : W4 m ρ c (Proc.devRef .tc main_arg13) = m ((c.tc : Thread nD τ).loc main_arg13) :=
  (W4_of_ne m ρ c main_arg13 (by decide)).trans (s1_a13 m ρ c)
theorem c1_a14 : W4 m ρ c (Proc.devRef .tc main_arg14) = m ((c.tc : Thread nD τ).loc main_arg14) :=
  (W4_of_ne m ρ c main_arg14 (by decide)).trans (s1_a14 m ρ c)
theorem c1_a15 : W4 m ρ c (Proc.devRef .tc main_arg15) = m ((c.tc : Thread nD τ).loc main_arg15) :=
  (W4_of_ne m ρ c main_arg15 (by decide)).trans (s1_a15 m ρ c)

/-! ## The third host stretch -/

set_option maxHeartbeats 8000000 in
/-- The second layer's features averaged over each graph's nodes. -/
theorem s2_v43 : W5 m ρ c (Proc.devRef .tc main_v43) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  dsimp only [W5, hostOps2]
  after_results_simp
  rw [r1_v31 m ρ c, c1_a3 m ρ c]
  rfl

theorem s2_a10 : W5 m ρ c (Proc.devRef .tc main_arg10) = m ((c.tc : Thread nD τ).loc main_arg10) := by
  dsimp only [W5, hostOps2]
  after_results
  exact c1_a10 m ρ c
theorem s2_a11 : W5 m ρ c (Proc.devRef .tc main_arg11) = m ((c.tc : Thread nD τ).loc main_arg11) := by
  dsimp only [W5, hostOps2]
  after_results
  exact c1_a11 m ρ c
theorem s2_a12 : W5 m ρ c (Proc.devRef .tc main_arg12) = m ((c.tc : Thread nD τ).loc main_arg12) := by
  dsimp only [W5, hostOps2]
  after_results
  exact c1_a12 m ρ c
theorem s2_a13 : W5 m ρ c (Proc.devRef .tc main_arg13) = m ((c.tc : Thread nD τ).loc main_arg13) := by
  dsimp only [W5, hostOps2]
  after_results
  exact c1_a13 m ρ c
theorem s2_a14 : W5 m ρ c (Proc.devRef .tc main_arg14) = m ((c.tc : Thread nD τ).loc main_arg14) := by
  dsimp only [W5, hostOps2]
  after_results
  exact c1_a14 m ρ c
theorem s2_a15 : W5 m ρ c (Proc.devRef .tc main_arg15) = m ((c.tc : Thread nD τ).loc main_arg15) := by
  dsimp only [W5, hostOps2]
  after_results
  exact c1_a15 m ρ c

/-! ## The third launch: the result -/

/-- The kernel's result is the reference's result function of the arguments. -/
theorem result : W6 m ρ c (Proc.devRef .tc main_v44) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [show W6 m ρ c (Proc.devRef .tc main_v44) = (dat2 (V5 m ρ) c).arrAt 7 cfg2.N from W6_arr m ρ c 7, Head.final (V5 m ρ) c]
  show Head.head (W5 m ρ c (Proc.devRef .tc main_v43)) (W5 m ρ c (Proc.devRef .tc main_arg10)) (W5 m ρ c (Proc.devRef .tc main_arg11))
    (W5 m ρ c (Proc.devRef .tc main_arg12)) (W5 m ρ c (Proc.devRef .tc main_arg13)) (W5 m ρ c (Proc.devRef .tc main_arg14)) (W5 m ρ c (Proc.devRef .tc main_arg15)) = _
  rw [s2_v43 m ρ c, s2_a10 m ρ c, s2_a11 m ρ c, s2_a12 m ρ c, s2_a13 m ρ c, s2_a14 m ρ c, s2_a15 m ρ c,
    Cert.ReferenceIdeal.Layers.head]
  rfl

end Cert.KernelIdeal.Fold

end
-- ==== Proof.lean ====
/-
  A two-layer graph convolution network with a mean pool and an MLP head: the Pallas program against its jnp reference,
  on the extended reals.

  Both programs gather each edge's source-node features, scale them by the edge weight and sum them into the edge's
  destination node; combine that sum and the node's own features through two weight matrices and a bias and rectify;
  do the same once more on the result; average the second layer's features over each graph's nodes (dividing by the
  node count, at least one); and apply three dense layers, the first two rectified. The gathers, the sums by
  destination and by graph, and the division are host operations with the same text in both programs. The Pallas
  program computes each combine step in a kernel over ten blocks of 10000 nodes — the operands rounded to a narrower
  format on the way into the matrix unit, which changes nothing on the extended reals — and the head in one kernel
  step; the reference computes them with the host's general matrix product over all the nodes. Entry by entry both are
  the same sums of products; in a combine step the kernel adds "both products, then the bias" where the reference adds
  "first product, bias, second product", and addition of extended reals is commutative and associative, so the two
  agree at every input, finite or not. Nothing was rewritten when the kernel was idealized, so there is nothing for
  the idealization to preserve.
-/
import proofs.«151422_j9577777070402_1_alg».proof.Defs
import proofs.«151422_j9577777070402_1_alg».proof.Proof.Gen.Kernel
import proofs.«151422_j9577777070402_1_alg».proof.Proof.Gen.Kernel.Skeleton
import proofs.«151422_j9577777070402_1_alg».proof.Proof.Gen.Kernel.Launch
import proofs.«151422_j9577777070402_1_alg».proof.Proof.Gen.Kernel.Points
import proofs.«151422_j9577777070402_1_alg».proof.Proof.Gen.Kernel.Frame
import proofs.«151422_j9577777070402_1_alg».proof.Proof.Gen.KernelIdeal
import proofs.«151422_j9577777070402_1_alg».proof.Proof.Gen.KernelIdeal.Skeleton
import proofs.«151422_j9577777070402_1_alg».proof.Proof.Gen.KernelIdeal.Launch
import proofs.«151422_j9577777070402_1_alg».proof.Proof.Gen.KernelIdeal.Points
import proofs.«151422_j9577777070402_1_alg».proof.Proof.Gen.KernelIdeal.Frame
import proofs.«151422_j9577777070402_1_alg».proof.Proof.Gen.ReferenceIdeal
import proofs.«151422_j9577777070402_1_alg».proof.Proof.Gen.ReferenceIdeal.Run
import proofs.«151422_j9577777070402_1_alg».proof.Proof.Gen.ReferenceIdeal.Read
import proofs.«151422_j9577777070402_1_alg».proof.Proof.Gen.Pre_finite_inputs
import proofs.«151422_j9577777070402_1_alg».proof.Proof.RunAll
import proofs.«151422_j9577777070402_1_alg».proof.Proof.Fold
import Idealize.ShloMosaic.Adequacy
import Idealize.ShloMosaic.Init

noncomputable section

namespace Cert.Proof

open Idealize.ShloMosaic Idealize.ShloMosaic.TcCoe Idealize.SL.Sem

/-- The program as printed runs to the end, nothing faulting, its arguments unchanged. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run to the end with the same result: the
    reference's result function of the arguments, which the kernel's fold through its six segments also arrives at. -/
theorem algebraic : Cert.algebraic_KernelIdeal_ReferenceIdeal := by
  intro m ρ m' ρ' _ hagree
  refine ⟨fun c => Cert.KernelIdeal.Gen.W6 m ρ c (Proc.devRef .tc Cert.KernelIdeal.main_v44),
    Cert.KernelIdeal.RunAll.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v69_eq, h0, h1, h2, h3, h4, h5, h6, h7, h8, h9, h10, h11, h12, h13, h14, h15]
  exact (Cert.KernelIdeal.Fold.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
